-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S3x2x128x128 : Shape := ⟨4, ![3, 2, 128, 128]⟩
abbrev S3x2x128 : Shape := ⟨3, ![3, 2, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S3x2x128x128 : S_.BroadcastsInDim S3x2x128x128 (![] : Fin 0 → Fin S3x2x128x128.rank)
  reducesTo_S3x2x128x128_S_d0_1_2_3 : S3x2x128x128.ReducesTo [0, 1, 2, 3] S_
  bcast_S_S3x2x128 : S_.BroadcastsInDim S3x2x128 (![] : Fin 0 → Fin S3x2x128.rank)
  reducesTo_S3x2x128_S_d0_1_2 : S3x2x128.ReducesTo [0, 1, 2] S_

variable [Facts]

def fn_part1 {F : FTy → Type} [FloatOps F] (main_arg4 : FVec F S3x2x128 .f32) (main_v13 : IVec S_ 1) (main_v16 : IVec S3x2x128x128 1) : IVec S_ 1 :=
  let main_c_5 : IVec S_ 1 := constantI S_ 1 1#1
  let main_v17 : IVec S_ 1 := (fun x v => Host.reduce IntOp.andi x v reducesTo_S3x2x128x128_S_d0_1_2_3 h_S_) main_v16 main_c_5
  let main_v18 : IVec S_ 1 := andi main_v13 main_v17
  let main_v19 : FVec F S3x2x128 .f32 := Host.absf main_arg4
  let main_cst_6 : FVec F S_ .f32 := constant S_ .f32 0x7F800000#32
  let main_v20 : FVec F S3x2x128 .f32 := broadcastInDim S3x2x128 ![] bcast_S_S3x2x128 main_cst_6
  let main_v21 : IVec S3x2x128 1 := cmpf .olt main_v19 main_v20
  let main_c_7 : IVec S_ 1 := constantI S_ 1 1#1
  let main_v22 : IVec S_ 1 := (fun x v => Host.reduce IntOp.andi x v reducesTo_S3x2x128_S_d0_1_2 h_S_) main_v21 main_c_7
  let main_v23 : IVec S_ 1 := andi main_v18 main_v22
  main_v23

def fn {F : FTy → Type} [FloatOps F] (main_arg0 : FVec F S50000x128 .f32) (main_arg1 : FVec F S100000x128 .f32) (main_arg2 : FVec F S3x2x128x128 .f32) (main_arg3 : FVec F S3x2x128x128 .f32) (main_arg4 : FVec F S3x2x128 .f32) (main_arg5 : IVec S600000 32) (main_arg6 : IVec S600000 32) (main_arg7 : IVec S600000 32) (main_arg8 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S3x2x128x128 .f32 := Host.absf main_arg2
  let main_cst_2 : FVec F S_ .f32 := constant S_ .f32 0x7F800000#32
  let main_v10 : FVec F S3x2x128x128 .f32 := broadcastInDim S3x2x128x128 ![] bcast_S_S3x2x128x128 main_cst_2
  let main_v11 : IVec S3x2x128x128 1 := cmpf .olt main_v9 main_v10
  let main_c_3 : IVec S_ 1 := constantI S_ 1 1#1
  let main_v12 : IVec S_ 1 := (fun x v => Host.reduce IntOp.andi x v reducesTo_S3x2x128x128_S_d0_1_2_3 h_S_) main_v11 main_c_3
  let main_v13 : IVec S_ 1 := andi main_v8 main_v12
  let main_v14 : FVec F S3x2x128x128 .f32 := Host.absf main_arg3
  let main_cst_4 : FVec F S_ .f32 := constant S_ .f32 0x7F800000#32
  let main_v15 : FVec F S3x2x128x128 .f32 := broadcastInDim S3x2x128x128 ![] bcast_S_S3x2x128x128 main_cst_4
  let main_v16 : IVec S3x2x128x128 1 := cmpf .olt main_v14 main_v15
  fn_part1 (F := F) main_arg4 main_v13 main_v16
-- ==== Kernel.lean ====
abbrev S50000x128 : Shape := ⟨2, ![50000, 128]⟩
abbrev S100000x128 : Shape := ⟨2, ![100000, 128]⟩
abbrev S3x2x128x128 : Shape := ⟨4, ![3, 2, 128, 128]⟩
abbrev S3x2x128 : Shape := ⟨3, ![3, 2, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S5000x128 : Shape := ⟨2, ![5000, 128]⟩

abbrev nBuf : Space → Nat
  | .hbm => 136
  | .vmem => 32
  | .smem => 0
  | _ => 0

abbrev hbmTy0_0 (i : Nat) : BufTy := match i % 128 with
  | 0 => ⟨S50000x128, .f32⟩
  | 1 => ⟨S100000x128, .f32⟩
  | 2 => ⟨S3x2x128x128, .f32⟩
  | 3 => ⟨S3x2x128x128, .f32⟩
  | 4 => ⟨S3x2x128, .f32⟩
  | 5 => ⟨S600000, .i32⟩
  | 6 => ⟨S600000, .i32⟩
  | 7 => ⟨S600000, .i32⟩
  | 8 => ⟨S600000, .i32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S50000x128, .f32⟩
  | 20 => ⟨S600000x1, .i32⟩
  | 21 => ⟨S50000x128, .f32⟩
  | 22 => ⟨S_, .f32⟩
  | 23 => ⟨S600000x1, .f32⟩
  | 24 => ⟨S_, .f32⟩
  | 25 => ⟨S50000x1, .f32⟩
  | 26 => ⟨S600000x1, .i32⟩
  | 27 => ⟨S50000x1, .f32⟩
  | 28 => ⟨S_, .f32⟩
  | 29 => ⟨S50000x1, .f32⟩
  | 30 => ⟨S50000x1, .f32⟩
  | 31 => ⟨S50000x128, .f32⟩
  | 32 => ⟨S50000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S50000x128, .f32⟩
  | 44 => ⟨S600000x1, .i32⟩
  | 45 => ⟨S50000x128, .f32⟩
  | 46 => ⟨S_, .f32⟩
  | 47 => ⟨S600000x1, .f32⟩
  | 48 => ⟨S_, .f32⟩
  | 49 => ⟨S50000x1, .f32⟩
  | 50 => ⟨S600000x1, .i32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S1x1x128x128, .f32⟩
  | 58 => ⟨S128x128, .f32⟩
  | 59 => ⟨S1x1x128x128, .f32⟩
  | 60 => ⟨S128x128, .f32⟩
  | 61 => ⟨S1x1x128, .f32⟩
  | 62 => ⟨S128, .f32⟩
  | 63 => ⟨S1x1x128x128, .f32⟩
  | 64 => ⟨S128x128, .f32⟩
  | 65 => ⟨S1x1x128x128, .f32⟩
  | 66 => ⟨S128x128, .f32⟩
  | 67 => ⟨S1x1x128, .f32⟩
  | 68 => ⟨S128, .f32⟩
  | 69 => ⟨S1x128, .f32⟩
  | 70 => ⟨S1x128, .f32⟩
  | 71 => ⟨S50000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S_, .f32⟩
  | 86 => ⟨S600000x1, .f32⟩
  | 87 => ⟨S_, .f32⟩
  | 88 => ⟨S50000x1, .f32⟩
  | 89 => ⟨S600000x1, .i32⟩
  | 90 => ⟨S50000x1, .f32⟩
  | 91 => ⟨S_, .f32⟩
  | 92 => ⟨S50000x1, .f32⟩
  | 93 => ⟨S50000x1, .f32⟩
  | 94 => ⟨S50000x128, .f32⟩
  | 95 => ⟨S50000x128, .f32⟩
  | 96 => ⟨S1x1x128x128, .f32⟩
  | 97 => ⟨S128x128, .f32⟩
  | 98 => ⟨S1x1x128x128, .f32⟩
  | 99 => ⟨S128x128, .f32⟩
  | 100 => ⟨S1x1x128, .f32⟩
  | 101 => ⟨S128, .f32⟩
  | 102 => ⟨S1x128, .f32⟩
  | 103 => ⟨S50000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S_, .f32⟩
  | 114 => ⟨S50000x128, .f32⟩
  | 115 => ⟨S600000x1, .i32⟩
  | 116 => ⟨S50000x128, .f32⟩
  | 117 => ⟨S_, .f32⟩
  | 118 => ⟨S600000x1, .f32⟩
  | 119 => ⟨S_, .f32⟩
  | 120 => ⟨S50000x1, .f32⟩
  | 121 => ⟨S600000x1, .i32⟩
  | 122 => ⟨S50000x1, .f32⟩
  | 123 => ⟨S_, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x1x128x128, .f32⟩
  | 1 => ⟨S128x128, .f32⟩
  | 2 => ⟨S1x1x128x128, .f32⟩
  | 3 => ⟨S128x128, .f32⟩
  | 4 => ⟨S1x1x128, .f32⟩
  | 5 => ⟨S128, .f32⟩
  | 6 => ⟨S1x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_16 : Ref sig .tc := ⟨.hbm, 104, rfl⟩
abbrev main_v77 : Ref sig .tc := ⟨.hbm, 105, rfl⟩
abbrev main_v78 : Ref sig .tc := ⟨.hbm, 106, rfl⟩
abbrev main_c_17 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_19 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  slices_S3x2x128x128_S1x1x128x128_0_1_0_0 : S3x2x128x128.Slices ![0, 1, 0, 0] S1x1x128x128
  slices_S3x2x128_S1x1x128_0_1_0 : S3x2x128.Slices ![0, 1, 0] S1x1x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v70) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v75) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v76) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v94) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v96) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v101) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v102) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S3x2x128x128 : Shape := ⟨4, ![3, 2, 128, 128]⟩
abbrev S3x2x128 : Shape := ⟨3, ![3, 2, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S100000x128, .f32⟩
  | 2 => ⟨S3x2x128x128, .f32⟩
  | 3 => ⟨S3x2x128x128, .f32⟩
  | 4 => ⟨S3x2x128, .f32⟩
  | 5 => ⟨S600000, .i32⟩
  | 6 => ⟨S600000, .i32⟩
  | 7 => ⟨S600000, .i32⟩
  | 8 => ⟨S600000, .i32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S50000x128, .f32⟩
  | 20 => ⟨S600000x1, .i32⟩
  | 21 => ⟨S50000x128, .f32⟩
  | 22 => ⟨S_, .f32⟩
  | 23 => ⟨S600000x1, .f32⟩
  | 24 => ⟨S_, .f32⟩
  | 25 => ⟨S50000x1, .f32⟩
  | 26 => ⟨S600000x1, .i32⟩
  | 27 => ⟨S50000x1, .f32⟩
  | 28 => ⟨S_, .f32⟩
  | 29 => ⟨S50000x1, .f32⟩
  | 30 => ⟨S50000x1, .f32⟩
  | 31 => ⟨S50000x128, .f32⟩
  | 32 => ⟨S50000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S50000x128, .f32⟩
  | 44 => ⟨S600000x1, .i32⟩
  | 45 => ⟨S50000x128, .f32⟩
  | 46 => ⟨S_, .f32⟩
  | 47 => ⟨S600000x1, .f32⟩
  | 48 => ⟨S_, .f32⟩
  | 49 => ⟨S50000x1, .f32⟩
  | 50 => ⟨S600000x1, .i32⟩
  | 51 => ⟨S50000x1, .f32⟩
  | 52 => ⟨S_, .f32⟩
  | 53 => ⟨S50000x1, .f32⟩
  | 54 => ⟨S50000x1, .f32⟩
  | 55 => ⟨S50000x128, .f32⟩
  | 56 => ⟨S50000x128, .f32⟩
  | 57 => ⟨S1x1x128x128, .f32⟩
  | 58 => ⟨S128x128, .f32⟩
  | 59 => ⟨S1x1x128x128, .f32⟩
  | 60 => ⟨S128x128, .f32⟩
  | 61 => ⟨S1x1x128, .f32⟩
  | 62 => ⟨S128, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S1x1x128x128, .f32⟩
  | 73 => ⟨S128x128, .f32⟩
  | 74 => ⟨S1x1x128x128, .f32⟩
  | 75 => ⟨S128x128, .f32⟩
  | 76 => ⟨S1x1x128, .f32⟩
  | 77 => ⟨S128, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S_, .f32⟩
  | 102 => ⟨S600000x1, .f32⟩
  | 103 => ⟨S_, .f32⟩
  | 104 => ⟨S50000x1, .f32⟩
  | 105 => ⟨S600000x1, .i32⟩
  | 106 => ⟨S50000x1, .f32⟩
  | 107 => ⟨S_, .f32⟩
  | 108 => ⟨S50000x1, .f32⟩
  | 109 => ⟨S50000x1, .f32⟩
  | 110 => ⟨S50000x128, .f32⟩
  | 111 => ⟨S50000x128, .f32⟩
  | 112 => ⟨S1x1x128x128, .f32⟩
  | 113 => ⟨S128x128, .f32⟩
  | 114 => ⟨S1x1x128x128, .f32⟩
  | 115 => ⟨S128x128, .f32⟩
  | 116 => ⟨S1x1x128, .f32⟩
  | 117 => ⟨S128, .f32⟩
  | 118 => ⟨S50000x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S_, .f32⟩
  | 9 => ⟨S50000x128, .f32⟩
  | 10 => ⟨S600000x1, .i32⟩
  | 11 => ⟨S50000x128, .f32⟩
  | 12 => ⟨S_, .f32⟩
  | 13 => ⟨S600000x1, .f32⟩
  | 14 => ⟨S_, .f32⟩
  | 15 => ⟨S50000x1, .f32⟩
  | 16 => ⟨S600000x1, .i32⟩
  | 17 => ⟨S50000x1, .f32⟩
  | 18 => ⟨S_, .f32⟩
  | 19 => ⟨S50000x1, .f32⟩
  | 20 => ⟨S50000x1, .f32⟩
  | 21 => ⟨S50000x128, .f32⟩
  | 22 => ⟨S50000x128, .f32⟩
  | 23 => ⟨S1x1x128x128, .f32⟩
  | 24 => ⟨S128x128, .f32⟩
  | 25 => ⟨S1x1x128x128, .f32⟩
  | 26 => ⟨S128x128, .f32⟩
  | 27 => ⟨S1x1x128, .f32⟩
  | 28 => ⟨S128, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_c_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_15 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call2_cst : Ref sig .tc := ⟨.hbm, 124, rfl⟩
abbrev main_call2_v0 : Ref sig .tc := ⟨.hbm, 125, rfl⟩
abbrev main_v93 : Ref sig .tc := ⟨.hbm, 126, rfl⟩
abbrev main_c_16 : Ref sig .tc := ⟨.hbm, 127, rfl⟩
abbrev main_v94 : Ref sig .tc := ⟨.hbm, 128, rfl⟩
abbrev main_v95 : Ref sig .tc := ⟨.hbm, 129, rfl⟩
abbrev main_c_17 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_18 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_19 : Ref sig .tc := ⟨.hbm, 140, rfl⟩
abbrev main_v104 : Ref sig .tc := ⟨.hbm, 141, rfl⟩
abbrev main_cst_20 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_21 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call3_cst : Ref sig .tc := ⟨.hbm, 163, rfl⟩
abbrev main_call3_v0 : Ref sig .tc := ⟨.hbm, 164, rfl⟩
abbrev main_v124 : Ref sig .tc := ⟨.hbm, 165, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x2x128x128_S1x1x128x128_0_0_0_0 : S3x2x128x128.Slices ![0, 0, 0, 0] S1x1x128x128
  shapeCasts_S1x1x128x128_S128x128 : S1x1x128x128.ShapeCasts S128x128
  slices_S3x2x128_S1x1x128_0_0_0 : S3x2x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x2x128x128_S1x1x128x128_0_1_0_0 : S3x2x128x128.Slices ![0, 1, 0, 0] S1x1x128x128
  slices_S3x2x128_S1x1x128_0_1_0 : S3x2x128.Slices ![0, 1, 0] S1x1x128
  slices_S3x2x128x128_S1x1x128x128_1_1_0_0 : S3x2x128x128.Slices ![1, 1, 0, 0] S1x1x128x128
  slices_S3x2x128_S1x1x128_1_1_0 : S3x2x128.Slices ![1, 1, 0] S1x1x128
  slices_S3x2x128x128_S1x1x128x128_2_1_0_0 : S3x2x128x128.Slices ![2, 1, 0, 0] S1x1x128x128
  slices_S3x2x128_S1x1x128_2_1_0 : S3x2x128.Slices ![2, 1, 0] S1x1x128
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  dot_S50000x128_S128x128_S50000x128_1_0_0_1_n_n_wf : DotDims.WF S50000x128 S128x128 S50000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is three pipelined regions among stretches of host operations. Its generated frame ends every core at a
  thread state that holds each unscoped buffer at the last segment boundary's contents, and states of it only that the
  argument arrays are as launched. Read one buffer further, the same run says what the result buffer holds: the last
  region's output array after all its write-backs, that is, the fold of the region's flushed blocks over the array it
  found at entry. The argument arrays end as launched.
-/
import proofs.«116193_j76063870812433_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the last region's output array (its window 5). -/
theorem result_is_window : Pipeline.arrRef spec2 (5 : Fin cfg2.W) = main_v102 := rfl

set_option backward.isDefEq.respectTransparency.types false in
/-- Every weakly fair execution of the kernel program terminates without a fault; the result buffer ends at the last
    region's output array after every write-back, and the argument arrays end as launched. -/
theorem run_result : θ_run defs (onTc (τ := τ) (main (F := F))) ⟨m, fun _ => 0, ρ⟩ (fun r => ∀ c : Dev nD,
      r.2.mem ((c.tc : Thread nD τ).loc main_v102) = W6 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v102 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«116193_j76063870812433_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.SageSpec.lean ====
/-
  One mean-aggregation graph-convolution update, entry by entry, on the extended reals.

  For a node-feature array `h` (M rows, 128 features), an aggregated-neighbour array `n` of the same shape, two
  128×128 weight matrices `Ws`, `Wn` and a bias row `b`, the update is

      out (r, j) = max ( (Σ_k h (r, k) · Ws (k, j) + Σ_k n (r, k) · Wn (k, j)) + b j , 0 ).

  Entry (r, j) depends on row r of `h` and of `n`, on column j of the two weight matrices and on `b j`, and on
  nothing else — which is why computing it one block of rows at a time (each block against the whole weight matrices
  and the whole bias row) gives the same array as computing it on all rows at once. On the extended reals a change of
  float format is the identity, and a matrix product on the matrix unit into a zero accumulator and the host's
  `dot_general` are both the plain sum over the contracted axis, so the blockwise kernel expression and the host
  expression are this one function; no law beyond reading each operation at an index is needed, in particular nothing
  that would ask the entries to be finite.
-/
import Idealize.ShloMosaic.PureOps.Ideal.Laws
import Idealize.ShloMosaic.Lib.ValueIdx
import Idealize.ShloMosaic.Lib.ValueLayout
import Idealize.ShloMosaic.Lib.Pipeline.Value
import proofs.«116193_j76063870812433_1_alg».proof.Proof.LibMatmulNN
import proofs.«116193_j76063870812433_1_alg».proof.Proof.LibDotGeneralNN

noncomputable section

open scoped BigOperators

namespace Cert.Sage

open Idealize.ShloMosaic Idealize.ShloMosaic.ValueIdx

variable {M M' : Nat} {φ₁ φ₂ : FTy}

/-- An array of `M` rows of 128 features, as a function of its index. -/
abbrev Mat (M : Nat) : Type := (⟨2, ![M, 128]⟩ : Shape).Idx → EReal

/-- The value the rectifier compares against: what the all-zero f32 word denotes. -/
def zero : EReal := Ideal.ofBits .f32 0x00000000#32

/-- Entry `(r, j)` of `h · Ws + n · Wn + b`, the two products added first and the bias last. -/
def affine (h n : Mat M) (ws wn : Mat 128) (b : Fin 128 → EReal) (r : Fin M) (j : Fin 128) : EReal :=
  (∑ k : Fin 128, h (ix2 r k) * ws (ix2 k j) + ∑ k : Fin 128, n (ix2 r k) * wn (ix2 k j)) + b j

/-- The rectified update as a whole array. -/
def layer (h n : Mat M) (ws wn : Mat 128) (b : Fin 128 → EReal) : Mat M :=
  fun i => max (affine h n ws wn b (i 0) (i 1)) zero

theorem layer_apply (h n : Mat M) (ws wn : Mat 128) (b : Fin 128 → EReal) (r : Fin M) (j : Fin 128) :
    layer h n ws wn b (ix2 r j) = max (affine h n ws wn b r j) zero := rfl

/-- Entry `(r, j)` reads only row `r` of the two feature arrays, column `j` of the two weight matrices and `b j`:
    two instances that agree there agree at the entry, whatever the arrays' extents. -/
theorem affine_congr (h n : Mat M) (h' n' : Mat M') (ws wn ws' wn' : Mat 128) (b b' : Fin 128 → EReal)
    (r : Fin M) (r' : Fin M') (j j' : Fin 128)
    (eh : ∀ k : Fin 128, h (ix2 r k) = h' (ix2 r' k)) (en : ∀ k : Fin 128, n (ix2 r k) = n' (ix2 r' k))
    (ews : ∀ k : Fin 128, ws (ix2 k j) = ws' (ix2 k j')) (ewn : ∀ k : Fin 128, wn (ix2 k j) = wn' (ix2 k j'))
    (eb : b j = b' j') :
    affine h n ws wn b r j = affine h' n' ws' wn' b' r' j' := by
  unfold affine
  have e1 : ∑ k : Fin 128, h (ix2 r k) * ws (ix2 k j) = ∑ k : Fin 128, h' (ix2 r' k) * ws' (ix2 k j') :=
    Finset.sum_congr rfl fun k _ => by rw [eh k, ews k]
  have e2 : ∑ k : Fin 128, n (ix2 r k) * wn (ix2 k j) = ∑ k : Fin 128, n' (ix2 r' k) * wn' (ix2 k j') :=
    Finset.sum_congr rfl fun k _ => by rw [en k, ewn k]
  rw [e1, e2, eb]

/-! ## The kernel's expression of it, on a block of rows -/

/-- Two products on the matrix unit into zero accumulators, added, plus a `[1, 128]` bias row broadcast over the rows:
    at entry `(r, j)` this is `affine` of the operands, the bias read in its one row. -/
theorem block_affine (d : DotDims ⟨2, ![M, 128]⟩ ⟨2, ![128, 128]⟩ ⟨2, ![M, 128]⟩)
    (hlc : d.lhsContracting = [1]) (hrc : d.rhsContracting = [0]) (hln : d.lhsNonContracting = [0])
    (hrn : d.rhsNonContracting = [1]) (hlb : d.lhsBatch = []) (hrb : d.rhsBatch = [])
    (x n : FVec Ideal ⟨2, ![M, 128]⟩ φ₁) (ws wn : FVec Ideal ⟨2, ![128, 128]⟩ φ₂) (brow : FVec Ideal ⟨2, ![1, 128]⟩ .f32)
    (hb : (⟨2, ![1, 128]⟩ : Shape).Broadcasts ⟨2, ![M, 128]⟩) (r : Fin M) (j : Fin 128) :
    addf (addf (matmul d none x ws (constant (F := Ideal) ⟨2, ![M, 128]⟩ .f32 0x00000000#32))
        (matmul d none n wn (constant (F := Ideal) ⟨2, ![M, 128]⟩ .f32 0x00000000#32)))
      (broadcastTo ⟨2, ![M, 128]⟩ brow hb) (ix2 r j)
      = affine x n ws wn (fun c => brow (ix2 (0 : Fin 1) c)) r j := by
  rw [addf_apply, addf_apply, Cert.LibMatmulNN.matmul_zero_apply' d hlc hrc hln hrn hlb hrb none x ws r j,
    Cert.LibMatmulNN.matmul_zero_apply' d hlc hrc hln hrn hlb hrb none n wn r j,
    broadcastTo_1b_ab_apply brow hb r j]
  rfl

/-- The same under the rectifier against the broadcast zero scalar. -/
theorem block_layer (d : DotDims ⟨2, ![M, 128]⟩ ⟨2, ![128, 128]⟩ ⟨2, ![M, 128]⟩)
    (hlc : d.lhsContracting = [1]) (hrc : d.rhsContracting = [0]) (hln : d.lhsNonContracting = [0])
    (hrn : d.rhsNonContracting = [1]) (hlb : d.lhsBatch = []) (hrb : d.rhsBatch = [])
    (x n : FVec Ideal ⟨2, ![M, 128]⟩ φ₁) (ws wn : FVec Ideal ⟨2, ![128, 128]⟩ φ₂) (brow : FVec Ideal ⟨2, ![1, 128]⟩ .f32)
    (hb : (⟨2, ![1, 128]⟩ : Shape).Broadcasts ⟨2, ![M, 128]⟩) (r : Fin M) (j : Fin 128) :
    maximumf (addf (addf (matmul d none x ws (constant (F := Ideal) ⟨2, ![M, 128]⟩ .f32 0x00000000#32))
          (matmul d none n wn (constant (F := Ideal) ⟨2, ![M, 128]⟩ .f32 0x00000000#32)))
        (broadcastTo ⟨2, ![M, 128]⟩ brow hb))
      (broadcast ⟨2, ![M, 128]⟩ (Scalar.ofBits (F := Ideal) .f32 0x00000000#32)) (ix2 r j)
      = max (affine x n ws wn (fun c => brow (ix2 (0 : Fin 1) c)) r j) zero := by
  rw [maximumf_apply, block_affine d hlc hrc hln hrn hlb hrb x n ws wn brow hb r j]
  rfl

/-! ## The host's expression of it, on all rows -/

/-- A bias vector broadcast to a `[1, 128]` row and then over the rows, read at `(r, j)`, is the vector's entry `j`. -/
theorem bias_rows_apply (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1]) (r : Fin M) (j : Fin 128) :
    broadcastInDim ⟨2, ![M, 128]⟩ ![0, 1] h2 (broadcastInDim ⟨2, ![1, 128]⟩ ![1] h1 b) (ix2 r j) = b (ix1 j) := by
  rw [broadcastInDim_apply ![0, 1] h2 _ (ix2 r j) (ix2 (0 : Fin 1) j) (fun a => by
      match a with
      | ⟨0, _⟩ => rfl
      | ⟨1, _⟩ => rfl)]
  exact broadcastInDim_apply ![1] h1 b (ix2 (0 : Fin 1) j) (ix1 j) (fun a => by
      match a with
      | ⟨0, _⟩ => rfl)

/-- Two host `dot_general`s added, plus the bias vector broadcast over the rows, under the rectifier against the
    broadcast zero constant: at entry `(r, j)` the same `affine` under the same maximum. -/
theorem host_layer (d : DotDims ⟨2, ![M, 128]⟩ ⟨2, ![128, 128]⟩ ⟨2, ![M, 128]⟩)
    (hlc : d.lhsContracting = [1]) (hrc : d.rhsContracting = [0]) (hln : d.lhsNonContracting = [0])
    (hrn : d.rhsNonContracting = [1]) (hlb : d.lhsBatch = []) (hrb : d.rhsBatch = [])
    (x n : FVec Ideal ⟨2, ![M, 128]⟩ .f32) (ws wn : FVec Ideal ⟨2, ![128, 128]⟩ .f32) (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1])
    (h0 : (⟨0, ![]⟩ : Shape).BroadcastsInDim ⟨2, ![M, 128]⟩ ![]) (r : Fin M) (j : Fin 128) :
    maximumf (addf (addf (Host.dotGeneral (F := Ideal) d none x ws) (Host.dotGeneral (F := Ideal) d none n wn))
        (broadcastInDim ⟨2, ![M, 128]⟩ ![0, 1] h2 (broadcastInDim ⟨2, ![1, 128]⟩ ![1] h1 b)))
      (broadcastInDim ⟨2, ![M, 128]⟩ ![] h0 (constant (F := Ideal) ⟨0, ![]⟩ .f32 0x00000000#32)) (ix2 r j)
      = max (affine x n ws wn (fun c => b (ix1 c)) r j) zero := by
  rw [maximumf_apply, addf_apply, addf_apply]
  simp only [Host.dotGeneral]
  rw [Cert.LibDotGeneralNN.dotGeneral_apply d hlc hrc hln hrn hlb hrb none .single x ws r j,
    Cert.LibDotGeneralNN.dotGeneral_apply d hlc hrc hln hrn hlb hrb none .single n wn r j,
    bias_rows_apply b h1 h2 r j]
  rfl

end Cert.Sage

end
-- ==== Proof.RefStages.lean ====
/-
  The reference program, stage by stage, as the composition the kernel program also computes.

  The reference applies three rounds. Round 0 adds two rectified updates of the station features, one per relation,
  each with its own mean-aggregated neighbours; rounds 1 and 2 each apply one rectified update to the previous round's
  result, with neighbours mean-aggregated from that result along the temporal edges. The mean aggregation (gather the
  source rows, scatter-add them into their destination rows, divide by the in-degree clamped below at one) is carried
  here as ONE function of the feature array and the two edge-index arrays and never opened: both programs apply the
  same operations, so equal feature arrays give equal aggregates. Each rectified stage is read, entry by entry, as
  `Cert.Sage.layer`.
-/
import proofs.«116193_j76063870812433_1_alg».proof.Proof.Gen.ReferenceIdeal.Read
import proofs.«116193_j76063870812433_1_alg».proof.Proof.SageSpec

set_option maxRecDepth 16384

noncomputable section

namespace Cert.ReferenceIdeal.Stages

open Cert.ReferenceIdeal Cert.ReferenceIdeal.Gen Cert.ReferenceIdeal.Read
open Idealize.ShloMosaic Idealize.ShloMosaic.TcCoe Idealize.ShloMosaic.ValueIdx Cert.Sage

/-- Mean aggregation along the temporal edges: for each destination row, the sum of the source rows of `h` over the
    edges into it, divided by the number of such edges clamped below at one. -/
def meanAgg {F : FTy → Type} [FloatOps F] (h : (⟨S50000x128, .f32⟩ : BufTy).Contents (Elt F)) (src dst : (⟨S600000, .i32⟩ : BufTy).Contents (Elt F)) :
    (⟨S50000x128, .f32⟩ : BufTy).Contents (Elt F) :=
  Host.divf
    (Host.scatterAdd scatter_S50000x128_S600000x1_S600000x128_1_0_0_1 (val_main_v70 (F := F)) (val_main_v71 (F := F) dst)
      (Host.gather gather_S50000x128_S600000x1_S600000x128_1_0_n_n_0_1_1128 h (val_main_v68 (F := F) src)))
    (val_main_v79 (F := F) dst)

/-- A bias vector as a function of the feature number. -/
def biasOf (b : (⟨S128, .f32⟩ : BufTy).Contents (Elt Ideal)) : Fin 128 → EReal := fun q => b (ix1 q)

/-- Round 0: the two relations' rectified updates of the station features, added. -/
def out0 (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) : S50000x128.Idx → EReal := fun i =>
  layer (M := 50000) x0 (val_main_v17 (F := Ideal) x1 x5 x6) (val_main_v37 (F := Ideal) x2) (val_main_v39 (F := Ideal) x3) (biasOf (val_main_v41 (F := Ideal) x4)) i
  + layer (M := 50000) x0 (val_main_v35 (F := Ideal) x0 x7 x8) (val_main_v50 (F := Ideal) x2) (val_main_v52 (F := Ideal) x3) (biasOf (val_main_v54 (F := Ideal) x4)) i

/-- Round 1. -/
def out1 (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) : S50000x128.Idx → EReal :=
  layer (M := 50000) (out0 x0 x1 x2 x3 x4 x5 x6 x7 x8) (meanAgg (F := Ideal) (out0 x0 x1 x2 x3 x4 x5 x6 x7 x8) x7 x8) (val_main_v82 (F := Ideal) x2) (val_main_v84 (F := Ideal) x3) (biasOf (val_main_v86 (F := Ideal) x4))

/-- Round 2: the result. -/
def out2 (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) : S50000x128.Idx → EReal :=
  layer (M := 50000) (out1 x0 x1 x2 x3 x4 x5 x6 x7 x8) (meanAgg (F := Ideal) (out1 x0 x1 x2 x3 x4 x5 x6 x7 x8) x7 x8) (val_main_v113 (F := Ideal) x2) (val_main_v115 (F := Ideal) x3) (biasOf (val_main_v117 (F := Ideal) x4))

/-! ## The reference's stages are these -/

theorem v48_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v48 (F := Ideal) x0 x1 x2 x3 x4 x5 x6
      = layer (M := 50000) x0 (val_main_v17 (F := Ideal) x1 x5 x6) (val_main_v37 (F := Ideal) x2) (val_main_v39 (F := Ideal) x3) (biasOf (val_main_v41 (F := Ideal) x4)) := by
  funext i
  obtain ⟨r, j, rfl⟩ : ∃ (r : Fin 50000) (j : Fin 128), i = ix2 r j := ⟨i 0, i 1, eq_ix2 i⟩
  unfold val_main_v48 val_main_v47 val_main_v44 val_main_v42 val_main_v43 val_main_v46 val_main_v45 val_main_call0_v0 val_main_call0_cst
  exact host_layer dot_S50000x128_S128x128_S50000x128_1_0_0_1_n_n rfl rfl rfl rfl rfl rfl x0 (val_main_v17 (F := Ideal) x1 x5 x6)
    (val_main_v37 (F := Ideal) x2) (val_main_v39 (F := Ideal) x3) (val_main_v41 (F := Ideal) x4)
    bcast_S128_S1x128_1 bcast_S1x128_S50000x128_0_1 bcast_S_S50000x128 r j

theorem v61_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v61 (F := Ideal) x0 x2 x3 x4 x7 x8
      = layer (M := 50000) x0 (val_main_v35 (F := Ideal) x0 x7 x8) (val_main_v50 (F := Ideal) x2) (val_main_v52 (F := Ideal) x3) (biasOf (val_main_v54 (F := Ideal) x4)) := by
  funext i
  obtain ⟨r, j, rfl⟩ : ∃ (r : Fin 50000) (j : Fin 128), i = ix2 r j := ⟨i 0, i 1, eq_ix2 i⟩
  unfold val_main_v61 val_main_v60 val_main_v57 val_main_v55 val_main_v56 val_main_v59 val_main_v58 val_main_call1_v0 val_main_call1_cst
  exact host_layer dot_S50000x128_S128x128_S50000x128_1_0_0_1_n_n rfl rfl rfl rfl rfl rfl x0 (val_main_v35 (F := Ideal) x0 x7 x8)
    (val_main_v50 (F := Ideal) x2) (val_main_v52 (F := Ideal) x3) (val_main_v54 (F := Ideal) x4)
    bcast_S128_S1x128_1 bcast_S1x128_S50000x128_0_1 bcast_S_S50000x128 r j

theorem v62_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v62 (F := Ideal) x0 x1 x2 x3 x4 x5 x6 x7 x8 = out0 x0 x1 x2 x3 x4 x5 x6 x7 x8 := by
  funext i
  unfold val_main_v62 out0
  rw [addf_apply, v48_eq x0 x1 x2 x3 x4 x5 x6 x7 x8, v61_eq x0 x1 x2 x3 x4 x5 x6 x7 x8]

theorem v80_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v80 (F := Ideal) x0 x1 x2 x3 x4 x5 x6 x7 x8 = meanAgg (F := Ideal) (out0 x0 x1 x2 x3 x4 x5 x6 x7 x8) x7 x8 := by
  unfold val_main_v80 val_main_v72 val_main_v69
  rw [v62_eq x0 x1 x2 x3 x4 x5 x6 x7 x8]
  rfl

theorem v93_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v93 (F := Ideal) x0 x1 x2 x3 x4 x5 x6 x7 x8 = out1 x0 x1 x2 x3 x4 x5 x6 x7 x8 := by
  funext i
  obtain ⟨r, j, rfl⟩ : ∃ (r : Fin 50000) (j : Fin 128), i = ix2 r j := ⟨i 0, i 1, eq_ix2 i⟩
  unfold val_main_v93 val_main_v92 val_main_v89 val_main_v87 val_main_v88 val_main_v91 val_main_v90 val_main_call2_v0 val_main_call2_cst out1
  rw [v62_eq x0 x1 x2 x3 x4 x5 x6 x7 x8, v80_eq x0 x1 x2 x3 x4 x5 x6 x7 x8]
  exact host_layer dot_S50000x128_S128x128_S50000x128_1_0_0_1_n_n rfl rfl rfl rfl rfl rfl (out0 x0 x1 x2 x3 x4 x5 x6 x7 x8) (meanAgg (F := Ideal) (out0 x0 x1 x2 x3 x4 x5 x6 x7 x8) x7 x8)
    (val_main_v82 (F := Ideal) x2) (val_main_v84 (F := Ideal) x3) (val_main_v86 (F := Ideal) x4)
    bcast_S128_S1x128_1 bcast_S1x128_S50000x128_0_1 bcast_S_S50000x128 r j

theorem v111_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v111 (F := Ideal) x0 x1 x2 x3 x4 x5 x6 x7 x8 = meanAgg (F := Ideal) (out1 x0 x1 x2 x3 x4 x5 x6 x7 x8) x7 x8 := by
  unfold val_main_v111 val_main_v103 val_main_v100
  rw [v93_eq x0 x1 x2 x3 x4 x5 x6 x7 x8]
  rfl

theorem v124_eq (x0 : (⟨S50000x128, .f32⟩ : BufTy).Contents (Elt Ideal)) (x1 : (⟨S100000x128, .f32⟩ : BufTy).Contents (Elt Ideal)) (x2 x3 : (⟨S3x2x128x128, .f32⟩ : BufTy).Contents (Elt Ideal)) (x4 : (⟨S3x2x128, .f32⟩ : BufTy).Contents (Elt Ideal)) (x5 x6 x7 x8 : (⟨S600000, .i32⟩ : BufTy).Contents (Elt Ideal)) :
    val_main_v124 (F := Ideal) x0 x1 x2 x3 x4 x5 x6 x7 x8 = out2 x0 x1 x2 x3 x4 x5 x6 x7 x8 := by
  funext i
  obtain ⟨r, j, rfl⟩ : ∃ (r : Fin 50000) (j : Fin 128), i = ix2 r j := ⟨i 0, i 1, eq_ix2 i⟩
  unfold val_main_v124 val_main_v123 val_main_v120 val_main_v118 val_main_v119 val_main_v122 val_main_v121 val_main_call3_v0 val_main_call3_cst out2
  rw [v93_eq x0 x1 x2 x3 x4 x5 x6 x7 x8, v111_eq x0 x1 x2 x3 x4 x5 x6 x7 x8]
  exact host_layer dot_S50000x128_S128x128_S50000x128_1_0_0_1_n_n rfl rfl rfl rfl rfl rfl (out1 x0 x1 x2 x3 x4 x5 x6 x7 x8) (meanAgg (F := Ideal) (out1 x0 x1 x2 x3 x4 x5 x6 x7 x8) x7 x8)
    (val_main_v113 (F := Ideal) x2) (val_main_v115 (F := Ideal) x3) (val_main_v117 (F := Ideal) x4)
    bcast_S128_S1x128_1 bcast_S1x128_S50000x128_0_1 bcast_S_S50000x128 r j

end Cert.ReferenceIdeal.Stages

end
-- ==== Proof.Region2.lean ====
/-
  Region 2 of the kernel program: one rectified update computed block by block.

  The region's grid has ten points. Point `t` stages rows `5000·t … 5000·t + 4999` of the feature array and of the
  aggregated-neighbour array, the two whole weight matrices and the whole bias row, and writes back the same rows of
  the output. Its body is the update's expression on the block. Because entry `(r, j)` of the update depends only on
  row `r` of the two feature arrays, what point `t` writes back is block `t` of the update of the WHOLE arrays the
  region found at entry; the ten blocks tile the output, so after the last write-back the output array is that update,
  whatever the entry contents were.
-/
import proofs.«116193_j76063870812433_1_alg».proof.Proof.Gen.KernelIdeal.Frame
import proofs.«116193_j76063870812433_1_alg».proof.Proof.SageSpec
import Idealize.ShloMosaic.Lib.Pipeline.Value

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Sage

-- the buffer contents the region is entered from: any
variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)` of the block: the update of the staged blocks there. -/
theorem pay_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q) = max (affine (M := 5000) x0 x1 x2 x3 (fun c => x4 (ix2 (0 : Fin 1) c)) p q) zero := by
  unfold k2_pay1
  simp only [shapeCast_self]
  exact block_layer dot_S5000x128_S128x128_S5000x128_1_0_0_1_n_n rfl rfl rfl rfl rfl rfl _ _ _ _ x4 broadcasts_S1x128_S5000x128 p q

/-- The same at any index of the block. -/
theorem pay_apply' (x0 x1 : Vec Ideal S5000x128 .f32) (x2 x3 : Vec Ideal S128x128 .f32) (x4 : Vec Ideal S1x128 .f32)
    (y : S5000x128.Idx) :
    k2_pay1 (F := Ideal) x0 x1 x2 x3 x4 y = max (affine (M := 5000) x0 x1 x2 x3 (fun c => x4 (ix2 (0 : Fin 1) c)) (y 0) (y 1)) zero :=
  (congrArg (k2_pay1 (F := Ideal) x0 x1 x2 x3 x4) (eq_ix2 y)).trans (pay_apply x0 x1 x2 x3 x4 (y 0) (y 1))

/-- The printed index maps over the grid: the two feature windows and the output move along the rows with the point,
    the weights and the bias row stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The update of the whole arrays the region finds at entry. -/
def G (c : Dev nD) : S50000x128.Idx → EReal :=
  layer (M := 50000) (V c main_v76 : S50000x128.Idx → EReal) (V c main_v94 : S50000x128.Idx → EReal)
    (V c main_v96 : S128x128.Idx → EReal) (V c main_v98 : S128x128.Idx → EReal)
    (fun q => (V c main_v101 : S1x128.Idx → EReal) (ix2 (0 : Fin 1) q))

/-- WHAT POINT `t` WRITES BACK is block `t` of the update of the whole entry arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  refine (pay_apply' (iblk2 V c 0 t) (iblk2 V c 1 t) (iblk2 V c 2 t) (iblk2 V c 3 t) (iblk2 V c 4 t) y).trans ?_
  show max (affine (M := 5000) (iblk2 V c 0 t) (iblk2 V c 1 t) (iblk2 V c 2 t) (iblk2 V c 3 t)
        (fun q => iblk2 V c 4 t (ix2 (0 : Fin 1) q)) (y 0) (y 1)) zero
      = max (affine (M := 50000) (V c main_v76 : S50000x128.Idx → EReal) (V c main_v94 : S50000x128.Idx → EReal)
        (V c main_v96 : S128x128.Idx → EReal) (V c main_v98 : S128x128.Idx → EReal)
        (fun q => (V c main_v101 : S1x128.Idx → EReal) (ix2 (0 : Fin 1) q))
        ((((cfg2.win 5).blk t).view.emb y) 0) ((((cfg2.win 5).blk t).view.emb y) 1)) zero
  have hy0 : (y 0).val < 5000 := (y 0).isLt
  have hy1 : (y 1).val < 128 := (y 1).isLt
  refine congrArg (fun z => max z zero) (affine_congr (M := 5000) (M' := 50000)
    (iblk2 V c 0 t) (iblk2 V c 1 t) (V c main_v76) (V c main_v94) (iblk2 V c 2 t) (iblk2 V c 3 t) (V c main_v96) (V c main_v98)
    (fun q => iblk2 V c 4 t (ix2 (0 : Fin 1) q)) (fun q => (V c main_v101 : S1x128.Idx → EReal) (ix2 (0 : Fin 1) q))
    (y 0) ((((cfg2.win 5).blk t).view.emb y) 0) (y 1) ((((cfg2.win 5).blk t).view.emb y) 1)
    (fun k => ?_) (fun k => ?_) (fun k => ?_) (fun k => ?_) ?_)
  · -- the feature block's row is the array's row 5000·t + (y 0)
    show V c main_v76 (((cfg2.win 0).blk t).view.emb (ix2 (y 0) k)) = V c main_v76 (ix2 ((((cfg2.win 5).blk t).view.emb y) 0) k)
    refine congrArg (V c main_v76) (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * k.val = k.val; omega
  · show V c main_v94 (((cfg2.win 1).blk t).view.emb (ix2 (y 0) k)) = V c main_v94 (ix2 ((((cfg2.win 5).blk t).view.emb y) 0) k)
    refine congrArg (V c main_v94) (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 128 + 1 * k.val = k.val; omega
  · -- a weight matrix is staged whole: its block's column is the matrix's column (y 1)
    show V c main_v96 (((cfg2.win 2).blk t).view.emb (ix2 k (y 1))) = V c main_v96 (ix2 k ((((cfg2.win 5).blk t).view.emb y) 1))
    refine congrArg (V c main_v96) (funext fun a => Fin.ext ?_)
    match a with
    | ⟨0, _⟩ => show win2_2.index t (0 : Fin 2) * 128 + 1 * k.val = k.val; omega
    | ⟨1, _⟩ => show win2_2.index t (1 : Fin 2) * 128 + 1 * (y 1).val = win2_5.index t (1 : Fin 2) * 128 + 1 * (y 1).val; omega
  · show V c main_v98 (((cfg2.win 3).blk t).view.emb (ix2 k (y 1))) = V c main_v98 (ix2 k ((((cfg2.win 5).blk t).view.emb y) 1))
    refine congrArg (V c main_v98) (funext fun a => Fin.ext ?_)
    match a with
    | ⟨0, _⟩ => show win2_3.index t (0 : Fin 2) * 128 + 1 * k.val = k.val; omega
    | ⟨1, _⟩ => show win2_3.index t (1 : Fin 2) * 128 + 1 * (y 1).val = win2_5.index t (1 : Fin 2) * 128 + 1 * (y 1).val; omega
  · -- the bias row is staged whole
    show V c main_v101 (((cfg2.win 4).blk t).view.emb (ix2 (0 : Fin 1) (y 1))) = V c main_v101 (ix2 (0 : Fin 1) ((((cfg2.win 5).blk t).view.emb y) 1))
    refine congrArg (V c main_v101) (funext fun a => Fin.ext ?_)
    match a with
    | ⟨0, _⟩ => show win2_4.index t (0 : Fin 2) * 1 + 1 * 0 = 0; omega
    | ⟨1, _⟩ => show win2_4.index t (1 : Fin 2) * 128 + 1 * (y 1).val = win2_5.index t (1 : Fin 2) * 128 + 1 * (y 1).val; omega

/-- An index of the output array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v102).slice (win2_5.rect t)).set ↔ _
  rw [View.set_slice_whole, Rect.mem_set_unit]
  exact Iff.rfl

/-- Every row of the output is in the block of the point its row number divided by 5000 names. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk]
  obtain ⟨-, -, -, -, -, -, -, -, -, -, e50, e51⟩ := idx_facts ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win2_5.index ⟨(i 0).val / 5000, _⟩ (1 : Fin 2) * 128 ≤ (i 1).val ∧ (i 1).val < win2_5.index ⟨(i 0).val / 5000, _⟩ (1 : Fin 2) * 128 + 128
    rw [e51]
    omega

/-- THE OUTPUT ARRAY after the region: the update of the whole arrays it found at entry. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Region1.lean ====
/-
  Region 1 of the kernel program: one rectified update computed block by block.

  The region's grid has ten points. Point `t` stages rows `5000·t … 5000·t + 4999` of the feature array and of the
  aggregated-neighbour array, the two whole weight matrices and the whole bias row, and writes back the same rows of
  the output. Its body is the update's expression on the block. Because entry `(r, j)` of the update depends only on
  row `r` of the two feature arrays, what point `t` writes back is block `t` of the update of the WHOLE arrays the
  region found at entry; the ten blocks tile the output, so after the last write-back the output array is that update,
  whatever the entry contents were.
-/
import proofs.«116193_j76063870812433_1_alg».proof.Proof.Gen.KernelIdeal.Frame
import proofs.«116193_j76063870812433_1_alg».proof.Proof.SageSpec
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Sage

-- the buffer contents the region is entered from: any
variable (V : (c : Dev nD) → (b : Ref sig .tc) → Buf (Elt Ideal) ((c : Thread nD τ).loc b))

theorem hz : (![0, 0] : Fin 2 → Nat) = fun _ => 0 := funext fun a => by fin_cases a <;> rfl

/-- The body's stored value at entry `(p, q)` of the block: the update of the staged blocks there. -/
theorem pay_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = max (affine (M := 5000) x0 x1 x2 x3 (fun c => x4 (ix2 (0 : Fin 1) c)) p q) zero := by
  unfold k1_pay1
  simp only [shapeCast_self]
  exact block_layer dot_S5000x128_S128x128_S5000x128_1_0_0_1_n_n rfl rfl rfl rfl rfl rfl _ _ _ _ x4 broadcasts_S1x128_S5000x128 p q

/-- The same at any index of the block. -/
theorem pay_apply' (x0 x1 : Vec Ideal S5000x128 .f32) (x2 x3 : Vec Ideal S128x128 .f32) (x4 : Vec Ideal S1x128 .f32)
    (y : S5000x128.Idx) :
    k1_pay1 (F := Ideal) x0 x1 x2 x3 x4 y = max (affine (M := 5000) x0 x1 x2 x3 (fun c => x4 (ix2 (0 : Fin 1) c)) (y 0) (y 1)) zero :=
  (congrArg (k1_pay1 (F := Ideal) x0 x1 x2 x3 x4) (eq_ix2 y)).trans (pay_apply x0 x1 x2 x3 x4 (y 0) (y 1))

/-- The printed index maps over the grid: the two feature windows and the output move along the rows with the point,
    the weights and the bias row stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The update of the whole arrays the region finds at entry. -/
def G (c : Dev nD) : S50000x128.Idx → EReal :=
  layer (M := 50000) (V c main_v50 : S50000x128.Idx → EReal) (V c main_v68 : S50000x128.Idx → EReal)
    (V c main_v70 : S128x128.Idx → EReal) (V c main_v72 : S128x128.Idx → EReal)
    (fun q => (V c main_v75 : S1x128.Idx → EReal) (ix2 (0 : Fin 1) q))

/-- WHAT POINT `t` WRITES BACK is block `t` of the update of the whole entry arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext y
  refine (pay_apply' (iblk1 V c 0 t) (iblk1 V c 1 t) (iblk1 V c 2 t) (iblk1 V c 3 t) (iblk1 V c 4 t) y).trans ?_
  show max (affine (M := 5000) (iblk1 V c 0 t) (iblk1 V c 1 t) (iblk1 V c 2 t) (iblk1 V c 3 t)
        (fun q => iblk1 V c 4 t (ix2 (0 : Fin 1) q)) (y 0) (y 1)) zero
      = max (affine (M := 50000) (V c main_v50 : S50000x128.Idx → EReal) (V c main_v68 : S50000x128.Idx → EReal)
        (V c main_v70 : S128x128.Idx → EReal) (V c main_v72 : S128x128.Idx → EReal)
        (fun q => (V c main_v75 : S1x128.Idx → EReal) (ix2 (0 : Fin 1) q))
        ((((cfg1.win 5).blk t).view.emb y) 0) ((((cfg1.win 5).blk t).view.emb y) 1)) zero
  have hy0 : (y 0).val < 5000 := (y 0).isLt
  have hy1 : (y 1).val < 128 := (y 1).isLt
  refine congrArg (fun z => max z zero) (affine_congr (M := 5000) (M' := 50000)
    (iblk1 V c 0 t) (iblk1 V c 1 t) (V c main_v50) (V c main_v68) (iblk1 V c 2 t) (iblk1 V c 3 t) (V c main_v70) (V c main_v72)
    (fun q => iblk1 V c 4 t (ix2 (0 : Fin 1) q)) (fun q => (V c main_v75 : S1x128.Idx → EReal) (ix2 (0 : Fin 1) q))
    (y 0) ((((cfg1.win 5).blk t).view.emb y) 0) (y 1) ((((cfg1.win 5).blk t).view.emb y) 1)
    (fun k => ?_) (fun k => ?_) (fun k => ?_) (fun k => ?_) ?_)
  · -- the feature block's row is the array's row 5000·t + (y 0)
    show V c main_v50 (((cfg1.win 0).blk t).view.emb (ix2 (y 0) k)) = V c main_v50 (ix2 ((((cfg1.win 5).blk t).view.emb y) 0) k)
    refine congrArg (V c main_v50) (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · show V c main_v68 (((cfg1.win 1).blk t).view.emb (ix2 (y 0) k)) = V c main_v68 (ix2 ((((cfg1.win 5).blk t).view.emb y) 0) k)
    refine congrArg (V c main_v68) (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · -- a weight matrix is staged whole: its block's column is the matrix's column (y 1)
    show V c main_v70 (((cfg1.win 2).blk t).view.emb (ix2 k (y 1))) = V c main_v70 (ix2 k ((((cfg1.win 5).blk t).view.emb y) 1))
    refine congrArg (V c main_v70) (funext fun a => Fin.ext ?_)
    match a with
    | ⟨0, _⟩ => show win1_2.index t (0 : Fin 2) * 128 + 1 * k.val = k.val; omega
    | ⟨1, _⟩ => show win1_2.index t (1 : Fin 2) * 128 + 1 * (y 1).val = win1_5.index t (1 : Fin 2) * 128 + 1 * (y 1).val; omega
  · show V c main_v72 (((cfg1.win 3).blk t).view.emb (ix2 k (y 1))) = V c main_v72 (ix2 k ((((cfg1.win 5).blk t).view.emb y) 1))
    refine congrArg (V c main_v72) (funext fun a => Fin.ext ?_)
    match a with
    | ⟨0, _⟩ => show win1_3.index t (0 : Fin 2) * 128 + 1 * k.val = k.val; omega
    | ⟨1, _⟩ => show win1_3.index t (1 : Fin 2) * 128 + 1 * (y 1).val = win1_5.index t (1 : Fin 2) * 128 + 1 * (y 1).val; omega
  · -- the bias row is staged whole
    show V c main_v75 (((cfg1.win 4).blk t).view.emb (ix2 (0 : Fin 1) (y 1))) = V c main_v75 (ix2 (0 : Fin 1) ((((cfg1.win 5).blk t).view.emb y) 1))
    refine congrArg (V c main_v75) (funext fun a => Fin.ext ?_)
    match a with
    | ⟨0, _⟩ => show win1_4.index t (0 : Fin 2) * 1 + 1 * 0 = 0; omega
    | ⟨1, _⟩ => show win1_4.index t (1 : Fin 2) * 128 + 1 * (y 1).val = win1_5.index t (1 : Fin 2) * 128 + 1 * (y 1).val; omega

/-- An index of the output array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v76).slice (win1_5.rect t)).set ↔ _
  rw [View.set_slice_whole, Rect.mem_set_unit]
  exact Iff.rfl

/-- Every row of the output is in the block of the point its row number divided by 5000 names. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk]
  obtain ⟨-, -, -, -, -, -, -, -, -, -, e50, e51⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]
    show (i 0).val / 5000 * 5000 ≤ (i 0).val ∧ (i 0).val < (i 0).val / 5000 * 5000 + 5000
    omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e51]
    omega

/-- THE OUTPUT ARRAY after the region: the update of the whole arrays it found at entry. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Region0.lean ====
/-
  Region 0 of the kernel program: the two relations' rectified updates of the station features, added, block by block.

  The grid has ten points. Point `t` stages rows `5000·t … 5000·t + 4999` of the station features and of the two
  aggregated-neighbour arrays, and whole, the four weight matrices and the two bias rows; it writes back the same rows of
  the output. Its body computes, on the block, the first relation's rectified update plus the second's. Entry `(r, j)` of
  either update depends only on row `r` of the feature arrays, so what point `t` writes back is block `t` of the sum of
  the two updates of the WHOLE arrays found at entry; the ten blocks tile the output.
-/
import proofs.«116193_j76063870812433_1_alg».proof.Proof.Gen.KernelIdeal.Frame
import proofs.«116193_j76063870812433_1_alg».proof.Proof.SageSpec
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Sage

-- the buffer contents the region is entered from: any
variable (V : (c : Dev nD) → (b : Ref sig .tc) → Buf (Elt Ideal) ((c : Thread nD τ).loc b))

theorem hz : (![0, 0] : Fin 2 → Nat) = fun _ => 0 := funext fun a => by fin_cases a <;> rfl

/-- The first relation's branch of the body at entry `(p, q)` of the block: its rectified update. -/
theorem pay3_apply (x0 x1 : Vec Ideal S5000x128 .f32) (x3 x4 : Vec Ideal S128x128 .f32) (x5 : Vec Ideal S1x128 .f32)
    (p : Fin 5000) (q : Fin 128) :
    k0_pay3 (F := Ideal) x0 x1 x3 x4 x5 (ix2 p q) = max (affine (M := 5000) x0 x1 x3 x4 (fun c => x5 (ix2 (0 : Fin 1) c)) p q) zero := by
  unfold k0_pay3 k0_pay2
  simp only [shapeCast_self]
  exact block_layer dot_S5000x128_S128x128_S5000x128_1_0_0_1_n_n rfl rfl rfl rfl rfl rfl _ _ _ _ x5 broadcasts_S1x128_S5000x128 p q

/-- The second relation's branch before its rectifier. -/
theorem pay4_apply (x0 x2 : Vec Ideal S5000x128 .f32) (x6 x7 : Vec Ideal S128x128 .f32) (x8 : Vec Ideal S1x128 .f32)
    (p : Fin 5000) (q : Fin 128) :
    k0_pay4 (F := Ideal) x0 x2 x6 x7 x8 (ix2 p q) = affine (M := 5000) x0 x2 x6 x7 (fun c => x8 (ix2 (0 : Fin 1) c)) p q := by
  unfold k0_pay4 k0_pay2
  simp only [shapeCast_self]
  exact block_affine dot_S5000x128_S128x128_S5000x128_1_0_0_1_n_n rfl rfl rfl rfl rfl rfl _ _ _ _ x8 broadcasts_S1x128_S5000x128 p q

/-- The body's stored value at entry `(p, q)`: the two rectified updates added. -/
theorem pay_apply (x0 x1 x2 : Vec Ideal S5000x128 .f32) (x3 x4 : Vec Ideal S128x128 .f32) (x5 : Vec Ideal S1x128 .f32)
    (x6 x7 : Vec Ideal S128x128 .f32) (x8 : Vec Ideal S1x128 .f32) (p : Fin 5000) (q : Fin 128) :
    k0_pay1 (F := Ideal) (k0_pay3 x0 x1 x3 x4 x5) (k0_pay4 x0 x2 x6 x7 x8) (ix2 p q)
      = max (affine (M := 5000) x0 x1 x3 x4 (fun c => x5 (ix2 (0 : Fin 1) c)) p q) zero
        + max (affine (M := 5000) x0 x2 x6 x7 (fun c => x8 (ix2 (0 : Fin 1) c)) p q) zero := by
  show addf (k0_pay3 (F := Ideal) x0 x1 x3 x4 x5)
      (maximumf (k0_pay4 (F := Ideal) x0 x2 x6 x7 x8) (broadcast S5000x128 (Scalar.ofBits (F := Ideal) .f32 0x00000000#32))) (ix2 p q) = _
  rw [addf_apply, maximumf_apply, pay3_apply x0 x1 x3 x4 x5 p q, pay4_apply x0 x2 x6 x7 x8 p q]
  rfl

/-- The same at any index of the block. -/
theorem pay_apply' (x0 x1 x2 : Vec Ideal S5000x128 .f32) (x3 x4 : Vec Ideal S128x128 .f32) (x5 : Vec Ideal S1x128 .f32)
    (x6 x7 : Vec Ideal S128x128 .f32) (x8 : Vec Ideal S1x128 .f32) (y : S5000x128.Idx) :
    k0_pay1 (F := Ideal) (k0_pay3 x0 x1 x3 x4 x5) (k0_pay4 x0 x2 x6 x7 x8) y
      = max (affine (M := 5000) x0 x1 x3 x4 (fun c => x5 (ix2 (0 : Fin 1) c)) (y 0) (y 1)) zero
        + max (affine (M := 5000) x0 x2 x6 x7 (fun c => x8 (ix2 (0 : Fin 1) c)) (y 0) (y 1)) zero :=
  (congrArg (k0_pay1 (F := Ideal) (k0_pay3 x0 x1 x3 x4 x5) (k0_pay4 x0 x2 x6 x7 x8)) (eq_ix2 y)).trans
    (pay_apply x0 x1 x2 x3 x4 x5 x6 x7 x8 (y 0) (y 1))

/-- The printed index maps over the grid: the three feature windows and the output move along the rows with the point,
    the weights and the bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The two updates of the whole arrays the region finds at entry, added. -/
def G (c : Dev nD) : S50000x128.Idx → EReal := fun i =>
  layer (M := 50000) (V c main_arg0 : S50000x128.Idx → EReal) (V c main_v17 : S50000x128.Idx → EReal)
    (V c main_v37 : S128x128.Idx → EReal) (V c main_v39 : S128x128.Idx → EReal)
    (fun q => (V c main_v48 : S1x128.Idx → EReal) (ix2 (0 : Fin 1) q)) i
  + layer (M := 50000) (V c main_arg0 : S50000x128.Idx → EReal) (V c main_v35 : S50000x128.Idx → EReal)
    (V c main_v43 : S128x128.Idx → EReal) (V c main_v45 : S128x128.Idx → EReal)
    (fun q => (V c main_v49 : S1x128.Idx → EReal) (ix2 (0 : Fin 1) q)) i

/-- WHAT POINT `t` WRITES BACK is block `t` of the sum of the two updates of the whole entry arrays. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61, e70, e71, e80, e81, e90, e91⟩ := idx_facts t
  funext y
  refine (pay_apply' (iblk0 V c 0 t) (iblk0 V c 1 t) (iblk0 V c 2 t) (iblk0 V c 3 t) (iblk0 V c 4 t) (iblk0 V c 5 t)
    (iblk0 V c 6 t) (iblk0 V c 7 t) (iblk0 V c 8 t) y).trans ?_
  have hy0 : (y 0).val < 5000 := (y 0).isLt
  have hy1 : (y 1).val < 128 := (y 1).isLt
  have A1 : affine (M := 5000) (iblk0 V c 0 t) (iblk0 V c 1 t) (iblk0 V c 3 t) (iblk0 V c 4 t)
        (fun q => iblk0 V c 5 t (ix2 (0 : Fin 1) q)) (y 0) (y 1)
      = affine (M := 50000) (V c main_arg0 : S50000x128.Idx → EReal) (V c main_v17 : S50000x128.Idx → EReal)
        (V c main_v37 : S128x128.Idx → EReal) (V c main_v39 : S128x128.Idx → EReal)
        (fun q => (V c main_v48 : S1x128.Idx → EReal) (ix2 (0 : Fin 1) q)) ((((cfg0.win 9).blk t).view.emb y) 0) ((((cfg0.win 9).blk t).view.emb y) 1) := by
    refine affine_congr (M := 5000) (M' := 50000)
      (iblk0 V c 0 t) (iblk0 V c 1 t) (V c main_arg0) (V c main_v17) (iblk0 V c 3 t) (iblk0 V c 4 t) (V c main_v37) (V c main_v39)
      (fun q => iblk0 V c 5 t (ix2 (0 : Fin 1) q)) (fun q => (V c main_v48 : S1x128.Idx → EReal) (ix2 (0 : Fin 1) q))
      (y 0) ((((cfg0.win 9).blk t).view.emb y) 0) (y 1) ((((cfg0.win 9).blk t).view.emb y) 1)
      (fun k => ?_) (fun k => ?_) (fun k => ?_) (fun k => ?_) ?_
    · show V c main_arg0 (((cfg0.win 0).blk t).view.emb (ix2 (y 0) k)) = V c main_arg0 (ix2 ((((cfg0.win 9).blk t).view.emb y) 0) k)
      refine congrArg (V c main_arg0) (funext fun a => Fin.ext ?_)
      match a with
      | ⟨0, _⟩ => show win0_0.index t (0 : Fin 2) * 5000 + 1 * (y 0).val = win0_9.index t (0 : Fin 2) * 5000 + 1 * (y 0).val; omega
      | ⟨1, _⟩ => show win0_0.index t (1 : Fin 2) * 128 + 1 * k.val = k.val; omega
    · show V c main_v17 (((cfg0.win 1).blk t).view.emb (ix2 (y 0) k)) = V c main_v17 (ix2 ((((cfg0.win 9).blk t).view.emb y) 0) k)
      refine congrArg (V c main_v17) (funext fun a => Fin.ext ?_)
      match a with
      | ⟨0, _⟩ => show win0_1.index t (0 : Fin 2) * 5000 + 1 * (y 0).val = win0_9.index t (0 : Fin 2) * 5000 + 1 * (y 0).val; omega
      | ⟨1, _⟩ => show win0_1.index t (1 : Fin 2) * 128 + 1 * k.val = k.val; omega
    · show V c main_v37 (((cfg0.win 3).blk t).view.emb (ix2 k (y 1))) = V c main_v37 (ix2 k ((((cfg0.win 9).blk t).view.emb y) 1))
      refine congrArg (V c main_v37) (funext fun a => Fin.ext ?_)
      match a with
      | ⟨0, _⟩ => show win0_3.index t (0 : Fin 2) * 128 + 1 * k.val = k.val; omega
      | ⟨1, _⟩ => show win0_3.index t (1 : Fin 2) * 128 + 1 * (y 1).val = win0_9.index t (1 : Fin 2) * 128 + 1 * (y 1).val; omega
    · show V c main_v39 (((cfg0.win 4).blk t).view.emb (ix2 k (y 1))) = V c main_v39 (ix2 k ((((cfg0.win 9).blk t).view.emb y) 1))
      refine congrArg (V c main_v39) (funext fun a => Fin.ext ?_)
      match a with
      | ⟨0, _⟩ => show win0_4.index t (0 : Fin 2) * 128 + 1 * k.val = k.val; omega
      | ⟨1, _⟩ => show win0_4.index t (1 : Fin 2) * 128 + 1 * (y 1).val = win0_9.index t (1 : Fin 2) * 128 + 1 * (y 1).val; omega
    · show V c main_v48 (((cfg0.win 5).blk t).view.emb (ix2 (0 : Fin 1) (y 1))) = V c main_v48 (ix2 (0 : Fin 1) ((((cfg0.win 9).blk t).view.emb y) 1))
      refine congrArg (V c main_v48) (funext fun a => Fin.ext ?_)
      match a with
      | ⟨0, _⟩ => show win0_5.index t (0 : Fin 2) * 1 + 1 * 0 = 0; omega
      | ⟨1, _⟩ => show win0_5.index t (1 : Fin 2) * 128 + 1 * (y 1).val = win0_9.index t (1 : Fin 2) * 128 + 1 * (y 1).val; omega
  have A2 : affine (M := 5000) (iblk0 V c 0 t) (iblk0 V c 2 t) (iblk0 V c 6 t) (iblk0 V c 7 t)
        (fun q => iblk0 V c 8 t (ix2 (0 : Fin 1) q)) (y 0) (y 1)
      = affine (M := 50000) (V c main_arg0 : S50000x128.Idx → EReal) (V c main_v35 : S50000x128.Idx → EReal)
        (V c main_v43 : S128x128.Idx → EReal) (V c main_v45 : S128x128.Idx → EReal)
        (fun q => (V c main_v49 : S1x128.Idx → EReal) (ix2 (0 : Fin 1) q)) ((((cfg0.win 9).blk t).view.emb y) 0) ((((cfg0.win 9).blk t).view.emb y) 1) := by
    refine affine_congr (M := 5000) (M' := 50000)
      (iblk0 V c 0 t) (iblk0 V c 2 t) (V c main_arg0) (V c main_v35) (iblk0 V c 6 t) (iblk0 V c 7 t) (V c main_v43) (V c main_v45)
      (fun q => iblk0 V c 8 t (ix2 (0 : Fin 1) q)) (fun q => (V c main_v49 : S1x128.Idx → EReal) (ix2 (0 : Fin 1) q))
      (y 0) ((((cfg0.win 9).blk t).view.emb y) 0) (y 1) ((((cfg0.win 9).blk t).view.emb y) 1)
      (fun k => ?_) (fun k => ?_) (fun k => ?_) (fun k => ?_) ?_
    · show V c main_arg0 (((cfg0.win 0).blk t).view.emb (ix2 (y 0) k)) = V c main_arg0 (ix2 ((((cfg0.win 9).blk t).view.emb y) 0) k)
      refine congrArg (V c main_arg0) (funext fun a => Fin.ext ?_)
      match a with
      | ⟨0, _⟩ => show win0_0.index t (0 : Fin 2) * 5000 + 1 * (y 0).val = win0_9.index t (0 : Fin 2) * 5000 + 1 * (y 0).val; omega
      | ⟨1, _⟩ => show win0_0.index t (1 : Fin 2) * 128 + 1 * k.val = k.val; omega
    · show V c main_v35 (((cfg0.win 2).blk t).view.emb (ix2 (y 0) k)) = V c main_v35 (ix2 ((((cfg0.win 9).blk t).view.emb y) 0) k)
      refine congrArg (V c main_v35) (funext fun a => Fin.ext ?_)
      match a with
      | ⟨0, _⟩ => show win0_2.index t (0 : Fin 2) * 5000 + 1 * (y 0).val = win0_9.index t (0 : Fin 2) * 5000 + 1 * (y 0).val; omega
      | ⟨1, _⟩ => show win0_2.index t (1 : Fin 2) * 128 + 1 * k.val = k.val; omega
    · show V c main_v43 (((cfg0.win 6).blk t).view.emb (ix2 k (y 1))) = V c main_v43 (ix2 k ((((cfg0.win 9).blk t).view.emb y) 1))
      refine congrArg (V c main_v43) (funext fun a => Fin.ext ?_)
      match a with
      | ⟨0, _⟩ => show win0_6.index t (0 : Fin 2) * 128 + 1 * k.val = k.val; omega
      | ⟨1, _⟩ => show win0_6.index t (1 : Fin 2) * 128 + 1 * (y 1).val = win0_9.index t (1 : Fin 2) * 128 + 1 * (y 1).val; omega
    · show V c main_v45 (((cfg0.win 7).blk t).view.emb (ix2 k (y 1))) = V c main_v45 (ix2 k ((((cfg0.win 9).blk t).view.emb y) 1))
      refine congrArg (V c main_v45) (funext fun a => Fin.ext ?_)
      match a with
      | ⟨0, _⟩ => show win0_7.index t (0 : Fin 2) * 128 + 1 * k.val = k.val; omega
      | ⟨1, _⟩ => show win0_7.index t (1 : Fin 2) * 128 + 1 * (y 1).val = win0_9.index t (1 : Fin 2) * 128 + 1 * (y 1).val; omega
    · show V c main_v49 (((cfg0.win 8).blk t).view.emb (ix2 (0 : Fin 1) (y 1))) = V c main_v49 (ix2 (0 : Fin 1) ((((cfg0.win 9).blk t).view.emb y) 1))
      refine congrArg (V c main_v49) (funext fun a => Fin.ext ?_)
      match a with
      | ⟨0, _⟩ => show win0_8.index t (0 : Fin 2) * 1 + 1 * 0 = 0; omega
      | ⟨1, _⟩ => show win0_8.index t (1 : Fin 2) * 128 + 1 * (y 1).val = win0_9.index t (1 : Fin 2) * 128 + 1 * (y 1).val; omega
  rw [A1, A2]
  rfl

/-- An index of the output array is in point `t`'s block iff each coordinate is in the block's range on its axis. -/
theorem mem_blk (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v50).slice (win0_9.rect t)).set ↔ _
  rw [View.set_slice_whole, Rect.mem_set_unit]
  exact Iff.rfl

/-- Every row of the output is in the block of the point its row number divided by 5000 names. -/
theorem cover (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_9 _, ?_⟩
  rw [mem_blk]
  obtain ⟨-, -, -, -, -, -, -, -, -, -, -, -, -, -, -, -, -, -, e90, e91⟩ := idx_facts ⟨(i 0).val / 5000, by rw [hN]; omega⟩
  intro a
  match a with
  | ⟨0, _⟩ =>
    show win0_9.index ⟨(i 0).val / 5000, _⟩ (0 : Fin 2) * 5000 ≤ (i 0).val ∧ (i 0).val < win0_9.index ⟨(i 0).val / 5000, _⟩ (0 : Fin 2) * 5000 + 5000
    rw [e90]
    show (i 0).val / 5000 * 5000 ≤ (i 0).val ∧ (i 0).val < (i 0).val / 5000 * 5000 + 5000
    omega
  | ⟨1, _⟩ =>
    show win0_9.index ⟨(i 0).val / 5000, _⟩ (1 : Fin 2) * 128 ≤ (i 1).val ∧ (i 1).val < win0_9.index ⟨(i 0).val / 5000, _⟩ (1 : Fin 2) * 128 + 128
    rw [e91]
    omega

/-- THE OUTPUT ARRAY after the region: the two updates of the whole entry arrays, added. -/
theorem final (c : Dev nD) : (dat0 V c).arrAt 9 cfg0.N = G V c :=
  (dat0 V c).arrAt_eq_of_cover 9 (G V c) (fun t _ => flushed_eq V c t) (cover)

end Cert.KernelIdeal.Region0

end
-- ==== Proof.Stretch0.lean ====
/-
  The kernel program up to the end of its first region.

  Before region 0 the host computes, from the launch arguments, exactly the reference's own first operations: the two
  mean aggregations (of the feature-node rows along the has-feature edges, of the station rows along the temporal
  edges), the four weight matrices and two bias vectors sliced out of the stacked parameters, the bias vectors
  reshaped to rows. So each array region 0 finds at entry is the reference's stage of the same name applied to the
  arguments, and region 0's output — the sum of the two updates of those arrays — is the reference's round 0.
-/
import proofs.«116193_j76063870812433_1_alg».proof.Proof.Gen.KernelIdeal.Frame
import proofs.«116193_j76063870812433_1_alg».proof.Proof.Region0
import proofs.«116193_j76063870812433_1_alg».proof.Proof.RefStages

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen
open Cert.ReferenceIdeal.Read (val_main_v17 val_main_v35 val_main_v37 val_main_v39 val_main_v41 val_main_v50 val_main_v52 val_main_v54
  val_main_v82 val_main_v84 val_main_v86 val_main_v113 val_main_v115 val_main_v117)
open Cert.ReferenceIdeal.Stages (meanAgg biasOf out0 out1 out2)

variable (m : (ℓ : Loc nD τ sig) → Buf (Elt Ideal) ℓ) (ρ : Dev nD → PrngReg) (c : Dev nD)

/-! ## What region 0 finds at entry -/

theorem V1_arg0 : V1 m ρ c main_arg0 = m ((c : Thread nD τ).loc main_arg0) := by
  show StableHlo.after hostOps0 (W0 m ρ c) (Proc.devRef .tc main_arg0) = _
  after_results_simp <;> rfl

theorem V1_v17 : V1 m ρ c main_v17 = val_main_v17 (F := Ideal) (m ((c : Thread nD τ).loc main_arg1)) (m ((c : Thread nD τ).loc main_arg5)) (m ((c : Thread nD τ).loc main_arg6)) := by
  show StableHlo.after hostOps0 (W0 m ρ c) (Proc.devRef .tc main_v17) = _
  after_results_simp <;> rfl

theorem V1_v35 : V1 m ρ c main_v35 = val_main_v35 (F := Ideal) (m ((c : Thread nD τ).loc main_arg0)) (m ((c : Thread nD τ).loc main_arg7)) (m ((c : Thread nD τ).loc main_arg8)) := by
  show StableHlo.after hostOps0 (W0 m ρ c) (Proc.devRef .tc main_v35) = _
  after_results_simp <;> rfl

theorem V1_v37 : V1 m ρ c main_v37 = val_main_v37 (F := Ideal) (m ((c : Thread nD τ).loc main_arg2)) := by
  show StableHlo.after hostOps0 (W0 m ρ c) (Proc.devRef .tc main_v37) = _
  after_results_simp <;> rfl

theorem V1_v39 : V1 m ρ c main_v39 = val_main_v39 (F := Ideal) (m ((c : Thread nD τ).loc main_arg3)) := by
  show StableHlo.after hostOps0 (W0 m ρ c) (Proc.devRef .tc main_v39) = _
  after_results_simp <;> rfl

theorem V1_v43 : V1 m ρ c main_v43 = val_main_v50 (F := Ideal) (m ((c : Thread nD τ).loc main_arg2)) := by
  show StableHlo.after hostOps0 (W0 m ρ c) (Proc.devRef .tc main_v43) = _
  after_results_simp <;> rfl

theorem V1_v45 : V1 m ρ c main_v45 = val_main_v52 (F := Ideal) (m ((c : Thread nD τ).loc main_arg3)) := by
  show StableHlo.after hostOps0 (W0 m ρ c) (Proc.devRef .tc main_v45) = _
  after_results_simp <;> rfl

/-- The first relation's bias, reshaped to a row. -/
theorem V1_v48 : V1 m ρ c main_v48 = shapeCast S1x128 (val_main_v41 (F := Ideal) (m ((c : Thread nD τ).loc main_arg4))) shapeCasts_S128_S1x128 := by
  show StableHlo.after hostOps0 (W0 m ρ c) (Proc.devRef .tc main_v48) = _
  after_results_simp <;> rfl

/-- The second relation's bias, reshaped to a row. -/
theorem V1_v49 : V1 m ρ c main_v49 = shapeCast S1x128 (val_main_v54 (F := Ideal) (m ((c : Thread nD τ).loc main_arg4))) shapeCasts_S128_S1x128 := by
  show StableHlo.after hostOps0 (W0 m ρ c) (Proc.devRef .tc main_v49) = _
  after_results_simp <;> rfl

/-- A bias row's entry `(0, q)` is the bias vector's entry `q`. -/
theorem bias48 : (fun q : Fin 128 => (V1 m ρ c main_v48 : S1x128.Idx → EReal) (ix2 (0 : Fin 1) q)) = biasOf (val_main_v41 (F := Ideal) (m ((c : Thread nD τ).loc main_arg4))) := by
  funext q
  rw [V1_v48 m ρ c]
  exact shapeCast_a_1a_apply _ shapeCasts_S128_S1x128 (0 : Fin 1) q

theorem bias49 : (fun q : Fin 128 => (V1 m ρ c main_v49 : S1x128.Idx → EReal) (ix2 (0 : Fin 1) q)) = biasOf (val_main_v54 (F := Ideal) (m ((c : Thread nD τ).loc main_arg4))) := by
  funext q
  rw [V1_v49 m ρ c]
  exact shapeCast_a_1a_apply _ shapeCasts_S128_S1x128 (0 : Fin 1) q

/-! ## Region 0's output is the reference's round 0 -/

theorem W2_v50 : (W2 m ρ c (Proc.devRef .tc main_v50) : S50000x128.Idx → EReal) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 9).trans ?_
  rw [Cert.KernelIdeal.Region0.final (V1 m ρ) c]
  unfold Cert.KernelIdeal.Region0.G
  rw [bias48 m ρ c, bias49 m ρ c, V1_arg0 m ρ c, V1_v17 m ρ c, V1_v35 m ρ c, V1_v37 m ρ c, V1_v39 m ρ c, V1_v43 m ρ c, V1_v45 m ρ c]
  rfl

/-! ## The arguments the later host stretches read are still as launched -/

theorem W2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results_simp <;> rfl

theorem W2_arg3 : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl

theorem W2_arg4 : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp <;> rfl

theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

end Cert.KernelIdeal.Chain

end
-- ==== Proof.Stretch1.lean ====
/-
  The kernel program from the end of region 0 to the end of region 1.

  Between the two regions the host mean-aggregates the previous region's output along the temporal edges, slices this
  round's two weight matrices and its bias vector out of the stacked parameters and reshapes the bias to a row: the
  reference's own operations on the same inputs. The previous output is the reference's round 0, so region 1 finds at
  entry the reference's round-0 features, their aggregate, and this round's parameters, and its output is round 1.
-/
import proofs.«116193_j76063870812433_1_alg».proof.Proof.Gen.KernelIdeal.Frame
import proofs.«116193_j76063870812433_1_alg».proof.Proof.Region1
import proofs.«116193_j76063870812433_1_alg».proof.Proof.RefStages
import proofs.«116193_j76063870812433_1_alg».proof.Proof.Stretch0

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen
open Cert.ReferenceIdeal.Read (val_main_v17 val_main_v35 val_main_v37 val_main_v39 val_main_v41 val_main_v50 val_main_v52 val_main_v54
  val_main_v82 val_main_v84 val_main_v86 val_main_v113 val_main_v115 val_main_v117)
open Cert.ReferenceIdeal.Stages (meanAgg biasOf out0 out1 out2)

variable (m : (ℓ : Loc nD τ sig) → Buf (Elt Ideal) ℓ) (ρ : Dev nD → PrngReg) (c : Dev nD)

/-! ## What region 1 finds at entry -/

/-- The previous region's output is not touched by the host operations in between. -/
theorem V3_v50 : (V3 m ρ c main_v50 : S50000x128.Idx → EReal) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps1 (W2 m ρ c) (Proc.devRef .tc main_v50) = _
  after_results_simp
  exact W2_v50 m ρ c

/-- Its mean aggregate along the temporal edges. -/
theorem V3_v68 : (V3 m ρ c main_v68 : S50000x128.Idx → EReal) = meanAgg (F := Ideal) (out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg7)) (m ((c : Thread nD τ).loc main_arg8)) := by
  show StableHlo.after hostOps1 (W2 m ρ c) (Proc.devRef .tc main_v68) = _
  after_results_simp
  rw [W2_v50 m ρ c, W2_arg7 m ρ c, W2_arg8 m ρ c]
  rfl

theorem V3_v70 : V3 m ρ c main_v70 = val_main_v82 (F := Ideal) (m ((c : Thread nD τ).loc main_arg2)) := by
  show StableHlo.after hostOps1 (W2 m ρ c) (Proc.devRef .tc main_v70) = _
  after_results_simp
  rw [W2_arg2 m ρ c]
  rfl

theorem V3_v72 : V3 m ρ c main_v72 = val_main_v84 (F := Ideal) (m ((c : Thread nD τ).loc main_arg3)) := by
  show StableHlo.after hostOps1 (W2 m ρ c) (Proc.devRef .tc main_v72) = _
  after_results_simp
  rw [W2_arg3 m ρ c]
  rfl

/-- This round's bias, reshaped to a row. -/
theorem V3_v75 : V3 m ρ c main_v75 = shapeCast S1x128 (val_main_v86 (F := Ideal) (m ((c : Thread nD τ).loc main_arg4))) shapeCasts_S128_S1x128 := by
  show StableHlo.after hostOps1 (W2 m ρ c) (Proc.devRef .tc main_v75) = _
  after_results_simp
  rw [W2_arg4 m ρ c]
  rfl

theorem bias_v75 : (fun q : Fin 128 => (V3 m ρ c main_v75 : S1x128.Idx → EReal) (ix2 (0 : Fin 1) q)) = biasOf (val_main_v86 (F := Ideal) (m ((c : Thread nD τ).loc main_arg4))) := by
  funext q
  rw [V3_v75 m ρ c]
  exact shapeCast_a_1a_apply _ shapeCasts_S128_S1x128 (0 : Fin 1) q

/-! ## Region 1's output is the reference's round 1 -/

theorem W4_v76 : (W4 m ρ c (Proc.devRef .tc main_v76) : S50000x128.Idx → EReal) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Cert.KernelIdeal.Region1.final (V3 m ρ) c]
  unfold Cert.KernelIdeal.Region1.G
  rw [bias_v75 m ρ c, V3_v50 m ρ c, V3_v68 m ρ c, V3_v70 m ρ c, V3_v72 m ρ c]
  rfl

/-! ## The arguments the next host stretch reads are still as launched -/

theorem W4_arg2 : W4 m ρ c (Proc.devRef .tc main_arg2) = m ((c : Thread nD τ).loc main_arg2) := by
  rw [W4_of_ne m ρ c main_arg2 (by decide)]
  show StableHlo.after hostOps1 (W2 m ρ c) (Proc.devRef .tc main_arg2) = _
  after_results_simp
  exact W2_arg2 m ρ c

theorem W4_arg3 : W4 m ρ c (Proc.devRef .tc main_arg3) = m ((c : Thread nD τ).loc main_arg3) := by
  rw [W4_of_ne m ρ c main_arg3 (by decide)]
  show StableHlo.after hostOps1 (W2 m ρ c) (Proc.devRef .tc main_arg3) = _
  after_results_simp
  exact W2_arg3 m ρ c

theorem W4_arg4 : W4 m ρ c (Proc.devRef .tc main_arg4) = m ((c : Thread nD τ).loc main_arg4) := by
  rw [W4_of_ne m ρ c main_arg4 (by decide)]
  show StableHlo.after hostOps1 (W2 m ρ c) (Proc.devRef .tc main_arg4) = _
  after_results_simp
  exact W2_arg4 m ρ c

theorem W4_arg7 : W4 m ρ c (Proc.devRef .tc main_arg7) = m ((c : Thread nD τ).loc main_arg7) := by
  rw [W4_of_ne m ρ c main_arg7 (by decide)]
  show StableHlo.after hostOps1 (W2 m ρ c) (Proc.devRef .tc main_arg7) = _
  after_results_simp
  exact W2_arg7 m ρ c

theorem W4_arg8 : W4 m ρ c (Proc.devRef .tc main_arg8) = m ((c : Thread nD τ).loc main_arg8) := by
  rw [W4_of_ne m ρ c main_arg8 (by decide)]
  show StableHlo.after hostOps1 (W2 m ρ c) (Proc.devRef .tc main_arg8) = _
  after_results_simp
  exact W2_arg8 m ρ c

end Cert.KernelIdeal.Chain

end
-- ==== Proof.Stretch2.lean ====
/-
  The kernel program from the end of region 1 to the end of region 2.

  Between the two regions the host mean-aggregates the previous region's output along the temporal edges, slices this
  round's two weight matrices and its bias vector out of the stacked parameters and reshapes the bias to a row: the
  reference's own operations on the same inputs. The previous output is the reference's round 1, so region 2 finds at
  entry the reference's round-1 features, their aggregate, and this round's parameters, and its output is round 2.
-/
import proofs.«116193_j76063870812433_1_alg».proof.Proof.Gen.KernelIdeal.Frame
import proofs.«116193_j76063870812433_1_alg».proof.Proof.Region2
import proofs.«116193_j76063870812433_1_alg».proof.Proof.RefStages
import proofs.«116193_j76063870812433_1_alg».proof.Proof.Stretch1

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen
open Cert.ReferenceIdeal.Read (val_main_v17 val_main_v35 val_main_v37 val_main_v39 val_main_v41 val_main_v50 val_main_v52 val_main_v54
  val_main_v82 val_main_v84 val_main_v86 val_main_v113 val_main_v115 val_main_v117)
open Cert.ReferenceIdeal.Stages (meanAgg biasOf out0 out1 out2)

variable (m : (ℓ : Loc nD τ sig) → Buf (Elt Ideal) ℓ) (ρ : Dev nD → PrngReg) (c : Dev nD)

/-! ## What region 2 finds at entry -/

/-- The previous region's output is not touched by the host operations in between. -/
theorem V5_v76 : (V5 m ρ c main_v76 : S50000x128.Idx → EReal) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v76) = _
  after_results_simp
  exact W4_v76 m ρ c

/-- Its mean aggregate along the temporal edges. -/
theorem V5_v94 : (V5 m ρ c main_v94 : S50000x128.Idx → EReal) = meanAgg (F := Ideal) (out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg7)) (m ((c : Thread nD τ).loc main_arg8)) := by
  show StableHlo.after hostOps2 (W4 m ρ c) (Proc.devRef .tc main_v94) = _
  after_results_simp
  rw [W4_v76 m ρ c, W4_arg7 m ρ c, W4_arg8 m ρ c]
  rfl

theorem V5_v96 : V5 m ρ c main_v96 = val_main_v113 (F := Ideal) (m ((c : Thread nD τ).loc main_arg2)) := by
  show StableHlo.after hostOps2 (W4 m ρ c) (Proc.devRef .tc main_v96) = _
  after_results_simp
  rw [W4_arg2 m ρ c]
  rfl

theorem V5_v98 : V5 m ρ c main_v98 = val_main_v115 (F := Ideal) (m ((c : Thread nD τ).loc main_arg3)) := by
  show StableHlo.after hostOps2 (W4 m ρ c) (Proc.devRef .tc main_v98) = _
  after_results_simp
  rw [W4_arg3 m ρ c]
  rfl

/-- This round's bias, reshaped to a row. -/
theorem V5_v101 : V5 m ρ c main_v101 = shapeCast S1x128 (val_main_v117 (F := Ideal) (m ((c : Thread nD τ).loc main_arg4))) shapeCasts_S128_S1x128 := by
  show StableHlo.after hostOps2 (W4 m ρ c) (Proc.devRef .tc main_v101) = _
  after_results_simp
  rw [W4_arg4 m ρ c]
  rfl

theorem bias_v101 : (fun q : Fin 128 => (V5 m ρ c main_v101 : S1x128.Idx → EReal) (ix2 (0 : Fin 1) q)) = biasOf (val_main_v117 (F := Ideal) (m ((c : Thread nD τ).loc main_arg4))) := by
  funext q
  rw [V5_v101 m ρ c]
  exact shapeCast_a_1a_apply _ shapeCasts_S128_S1x128 (0 : Fin 1) q

/-! ## Region 2's output is the reference's round 2 -/

theorem W6_v102 : (W6 m ρ c (Proc.devRef .tc main_v102) : S50000x128.Idx → EReal) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ?_
  rw [Cert.KernelIdeal.Region2.final (V5 m ρ) c]
  unfold Cert.KernelIdeal.Region2.G
  rw [bias_v101 m ρ c, V5_v76 m ρ c, V5_v94 m ρ c, V5_v96 m ρ c, V5_v98 m ρ c]
  rfl

end Cert.KernelIdeal.Chain

end
-- ==== Proof.lean ====
/-
  The kernel program and its reference compute the same three-round graph convolution.

  Each round is a rectified update  max (h · Ws + n · Wn + b, 0)  of the node features `h` with mean-aggregated neighbour
  features `n`; round 0 adds two such updates (one per relation), rounds 1 and 2 apply one each to the previous round's
  result. The kernel program computes every update in a pipelined region, ten blocks of 5000 rows at a time, with the
  operands rounded to bf16 on the way into the matrix unit; the reference computes it on all 50000 rows at once with
  host matrix products. On the extended reals the rounding is the identity and both matrix products are the plain sum
  over the contracted axis, and an entry of an update depends only on its own row of the feature arrays, so each
  region's output array is the reference's round of the same number (Region0 … Region2, Stretch0 … Stretch2). The
  neighbour aggregation between rounds is the same host operations in both programs, applied to equal arrays. No step
  uses that the inputs are finite: the two programs are the same function of the arguments on all extended reals.
  The idealization rewrote no operation, so nothing is owed for it, and the three frames are the generated ones.
-/
import proofs.«116193_j76063870812433_1_alg».proof.Defs
import proofs.«116193_j76063870812433_1_alg».proof.Proof.Gen.Kernel
import proofs.«116193_j76063870812433_1_alg».proof.Proof.Gen.Kernel.Frame
import proofs.«116193_j76063870812433_1_alg».proof.Proof.Gen.KernelIdeal
import proofs.«116193_j76063870812433_1_alg».proof.Proof.Gen.KernelIdeal.Frame
import proofs.«116193_j76063870812433_1_alg».proof.Proof.Gen.ReferenceIdeal
import proofs.«116193_j76063870812433_1_alg».proof.Proof.Gen.ReferenceIdeal.Run
import proofs.«116193_j76063870812433_1_alg».proof.Proof.Gen.ReferenceIdeal.Read
import proofs.«116193_j76063870812433_1_alg».proof.Proof.Gen.Pre_finite_inputs
import proofs.«116193_j76063870812433_1_alg».proof.Proof.KernelRun
import proofs.«116193_j76063870812433_1_alg».proof.Proof.RefStages
import proofs.«116193_j76063870812433_1_alg».proof.Proof.Stretch2

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's round 2 of the (agreeing) arguments. -/
theorem algebraic : Cert.algebraic_KernelIdeal_ReferenceIdeal := by
  intro m ρ m' ρ' _ hagree
  refine ⟨fun c => Cert.ReferenceIdeal.Stages.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.W6_v102 m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v124_eq, Cert.ReferenceIdeal.Stages.v124_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
